-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2000 : Shape := ⟨2, ![10000, 2000]⟩
abbrev S2x320000 : Shape := ⟨2, ![2, 320000]⟩
abbrev S320000 : Shape := ⟨1, ![320000]⟩
abbrev S10000x2 : Shape := ⟨2, ![10000, 2]⟩
abbrev S2000x301 : Shape := ⟨2, ![2000, 301]⟩
abbrev S301 : Shape := ⟨1, ![301]⟩
abbrev S_ : Shape := ⟨0, ![]⟩

class Facts : Prop where
  bcast_S_S10000x2000 : S_.BroadcastsInDim S10000x2000 (![] : Fin 0 → Fin S10000x2000.rank)
  reducesTo_S10000x2000_S_d0_1 : S10000x2000.ReducesTo [0, 1] S_
  h_S_ : 0 < S_.numel
  bcast_S_S320000 : S_.BroadcastsInDim S320000 (![] : Fin 0 → Fin S320000.rank)
  reducesTo_S320000_S_d0 : S320000.ReducesTo [0] S_
  bcast_S_S10000x2 : S_.BroadcastsInDim S10000x2 (![] : Fin 0 → Fin S10000x2.rank)
  reducesTo_S10000x2_S_d0_1 : S10000x2.ReducesTo [0, 1] S_
  bcast_S_S2000x301 : S_.BroadcastsInDim S2000x301 (![] : Fin 0 → Fin S2000x301.rank)
  reducesTo_S2000x301_S_d0_1 : S2000x301.ReducesTo [0, 1] S_
  bcast_S_S301 : S_.BroadcastsInDim S301 (![] : Fin 0 → Fin S301.rank)
  reducesTo_S301_S_d0 : S301.ReducesTo [0] S_

variable [Facts]

def fn_part1 {F : FTy → Type} [FloatOps F] (main_arg5 : FVec F S301 .f32) (main_v13 : IVec S_ 1) (main_v16 : IVec S2000x301 1) : IVec S_ 1 :=
  let main_c_5 : IVec S_ 1 := constantI S_ 1 1#1
  let main_v17 : IVec S_ 1 := (fun x v => Host.reduce IntOp.andi x v reducesTo_S2000x301_S_d0_1 h_S_) main_v16 main_c_5
  let main_v18 : IVec S_ 1 := andi main_v13 main_v17
  let main_v19 : FVec F S301 .f32 := Host.absf main_arg5
  let main_cst_6 : FVec F S_ .f32 := constant S_ .f32 0x7F800000#32
  let main_v20 : FVec F S301 .f32 := broadcastInDim S301 ![] bcast_S_S301 main_cst_6
  let main_v21 : IVec S301 1 := cmpf .olt main_v19 main_v20
  let main_c_7 : IVec S_ 1 := constantI S_ 1 1#1
  let main_v22 : IVec S_ 1 := (fun x v => Host.reduce IntOp.andi x v reducesTo_S301_S_d0 h_S_) main_v21 main_c_7
  let main_v23 : IVec S_ 1 := andi main_v18 main_v22
  main_v23

def fn {F : FTy → Type} [FloatOps F] (main_arg0 : FVec F S10000x2000 .f32) (main_arg1 : IVec S2x320000 32) (main_arg2 : FVec F S320000 .f32) (main_arg3 : FVec F S10000x2 .f32) (main_arg4 : FVec F S2000x301 .f32) (main_arg5 : FVec F S301 .f32) : IVec S_ 1 :=
  let main_v0 : FVec F S10000x2000 .f32 := Host.absf main_arg0
  let main_cst : FVec F S_ .f32 := constant S_ .f32 0x7F800000#32
  let main_v1 : FVec F S10000x2000 .f32 := broadcastInDim S10000x2000 ![] bcast_S_S10000x2000 main_cst
  let main_v2 : IVec S10000x2000 1 := cmpf .olt main_v0 main_v1
  let main_c : IVec S_ 1 := constantI S_ 1 1#1
  let main_v3 : IVec S_ 1 := (fun x v => Host.reduce IntOp.andi x v reducesTo_S10000x2000_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S10000x2 .f32 := Host.absf main_arg3
  let main_cst_2 : FVec F S_ .f32 := constant S_ .f32 0x7F800000#32
  let main_v10 : FVec F S10000x2 .f32 := broadcastInDim S10000x2 ![] bcast_S_S10000x2 main_cst_2
  let main_v11 : IVec S10000x2 1 := cmpf .olt main_v9 main_v10
  let main_c_3 : IVec S_ 1 := constantI S_ 1 1#1
  let main_v12 : IVec S_ 1 := (fun x v => Host.reduce IntOp.andi x v reducesTo_S10000x2_S_d0_1 h_S_) main_v11 main_c_3
  let main_v13 : IVec S_ 1 := andi main_v8 main_v12
  let main_v14 : FVec F S2000x301 .f32 := Host.absf main_arg4
  let main_cst_4 : FVec F S_ .f32 := constant S_ .f32 0x7F800000#32
  let main_v15 : FVec F S2000x301 .f32 := broadcastInDim S2000x301 ![] bcast_S_S2000x301 main_cst_4
  let main_v16 : IVec S2000x301 1 := cmpf .olt main_v14 main_v15
  fn_part1 (F := F) main_arg5 main_v13 main_v16
-- ==== Kernel.lean ====
abbrev S10000x2000 : Shape := ⟨2, ![10000, 2000]⟩
abbrev S2x320000 : Shape := ⟨2, ![2, 320000]⟩
abbrev S320000 : Shape := ⟨1, ![320000]⟩
abbrev S10000x2 : Shape := ⟨2, ![10000, 2]⟩
abbrev S2000x301 : Shape := ⟨2, ![2000, 301]⟩
abbrev S301 : Shape := ⟨1, ![301]⟩
abbrev S10000x301 : Shape := ⟨2, ![10000, 301]⟩
abbrev S1000x2000 : Shape := ⟨2, ![1000, 2000]⟩
abbrev S1000x301 : Shape := ⟨2, ![1000, 301]⟩
abbrev S10000 : Shape := ⟨1, ![10000]⟩
abbrev S1x320000 : Shape := ⟨2, ![1, 320000]⟩
abbrev S330000 : Shape := ⟨1, ![330000]⟩
abbrev S_ : Shape := ⟨0, ![]⟩
abbrev S330000x1 : Shape := ⟨2, ![330000, 1]⟩
abbrev S330000x301 : Shape := ⟨2, ![330000, 301]⟩
abbrev S10000x4x301x12 : Shape := ⟨4, ![10000, 4, 301, 12]⟩
abbrev S16x301 : Shape := ⟨2, ![16, 301]⟩
abbrev S16x4x301x12 : Shape := ⟨4, ![16, 4, 301, 12]⟩
abbrev S1x301 : Shape := ⟨2, ![1, 301]⟩
abbrev S16x1x301x1 : Shape := ⟨4, ![16, 1, 301, 1]⟩

abbrev nBuf : Space → Nat
  | .hbm => 67
  | .vmem => 12
  | .smem => 0
  | _ => 0

abbrev bufTy : (tb : Table) → Fin (tcTables nBuf tb) → BufTy
  | .hbm, ⟨0, _⟩ => ⟨S10000x2000, .f32⟩
  | .hbm, ⟨1, _⟩ => ⟨S2x320000, .i32⟩
  | .hbm, ⟨2, _⟩ => ⟨S320000, .f32⟩
  | .hbm, ⟨3, _⟩ => ⟨S10000x2, .f32⟩
  | .hbm, ⟨4, _⟩ => ⟨S2000x301, .f32⟩
  | .hbm, ⟨5, _⟩ => ⟨S301, .f32⟩
  | .hbm, ⟨6, _⟩ => ⟨S10000x301, .f32⟩
  | .hbm, ⟨7, _⟩ => ⟨S10000, .i32⟩
  | .hbm, ⟨8, _⟩ => ⟨S1x320000, .i32⟩
  | .hbm, ⟨9, _⟩ => ⟨S320000, .i32⟩
  | .hbm, ⟨10, _⟩ => ⟨S330000, .i32⟩
  | .hbm, ⟨11, _⟩ => ⟨S1x320000, .i32⟩
  | .hbm, ⟨12, _⟩ => ⟨S320000, .i32⟩
  | .hbm, ⟨13, _⟩ => ⟨S330000, .i32⟩
  | .hbm, ⟨14, _⟩ => ⟨S_, .f32⟩
  | .hbm, ⟨15, _⟩ => ⟨S10000, .f32⟩
  | .hbm, ⟨16, _⟩ => ⟨S330000, .f32⟩
  | .hbm, ⟨17, _⟩ => ⟨S_, .f32⟩
  | .hbm, ⟨18, _⟩ => ⟨S10000, .f32⟩
  | .hbm, ⟨19, _⟩ => ⟨S330000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S10000, .f32⟩
  | .hbm, ⟨25, _⟩ => ⟨S_, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .i32⟩
  | .hbm, ⟨30, _⟩ => ⟨S330000, .i32⟩
  | .hbm, ⟨31, _⟩ => ⟨S330000, .i1⟩
  | .hbm, ⟨32, _⟩ => ⟨S_, .i32⟩
  | .hbm, ⟨33, _⟩ => ⟨S330000, .i32⟩
  | .hbm, ⟨34, _⟩ => ⟨S330000, .i32⟩
  | .hbm, ⟨35, _⟩ => ⟨S330000, .i32⟩
  | .hbm, ⟨36, _⟩ => ⟨S330000x1, .i32⟩
  | .hbm, ⟨37, _⟩ => ⟨S330000, .f32⟩
  | .hbm, ⟨38, _⟩ => ⟨S330000, .f32⟩
  | .hbm, ⟨39, _⟩ => ⟨S_, .i32⟩
  | .hbm, ⟨40, _⟩ => ⟨S330000, .i32⟩
  | .hbm, ⟨41, _⟩ => ⟨S330000, .i1⟩
  | .hbm, ⟨42, _⟩ => ⟨S_, .i32⟩
  | .hbm, ⟨43, _⟩ => ⟨S330000, .i32⟩
  | .hbm, ⟨44, _⟩ => ⟨S330000, .i32⟩
  | .hbm, ⟨45, _⟩ => ⟨S330000, .i32⟩
  | .hbm, ⟨46, _⟩ => ⟨S330000x1, .i32⟩
  | .hbm, ⟨47, _⟩ => ⟨S330000, .f32⟩
  | .hbm, ⟨48, _⟩ => ⟨S330000, .f32⟩
  | .hbm, ⟨49, _⟩ => ⟨S_, .i32⟩
  | .hbm, ⟨50, _⟩ => ⟨S330000, .i32⟩
  | .hbm, ⟨51, _⟩ => ⟨S330000, .i1⟩
  | .hbm, ⟨52, _⟩ => ⟨S_, .i32⟩
  | .hbm, ⟨53, _⟩ => ⟨S330000, .i32⟩
  | .hbm, ⟨54, _⟩ => ⟨S330000, .i32⟩
  | .hbm, ⟨55, _⟩ => ⟨S330000, .i32⟩
  | .hbm, ⟨56, _⟩ => ⟨S330000x1, .i32⟩
  | .hbm, ⟨57, _⟩ => ⟨S330000x301, .f32⟩
  | .hbm, ⟨58, _⟩ => ⟨S330000x1, .f32⟩
  | .hbm, ⟨59, _⟩ => ⟨S330000x301, .f32⟩
  | .hbm, ⟨60, _⟩ => ⟨S330000x301, .f32⟩
  | .hbm, ⟨61, _⟩ => ⟨S_, .f32⟩
  | .hbm, ⟨62, _⟩ => ⟨S10000x301, .f32⟩
  | .hbm, ⟨63, _⟩ => ⟨S330000x1, .i32⟩
  | .hbm, ⟨64, _⟩ => ⟨S10000x301, .f32⟩
  | .hbm, ⟨65, _⟩ => ⟨S10000x4x301x12, .f32⟩
  | .hbm, ⟨66, _⟩ => ⟨S10000x301, .f32⟩
  | .local _ .vmem, ⟨0, _⟩ => ⟨S1000x2000, .f32⟩
  | .local _ .vmem, ⟨1, _⟩ => ⟨S1000x2000, .f32⟩
  | .local _ .vmem, ⟨2, _⟩ => ⟨S2000x301, .f32⟩
  | .local _ .vmem, ⟨3, _⟩ => ⟨S1000x301, .f32⟩
  | .local _ .vmem, ⟨4, _⟩ => ⟨S1000x301, .f32⟩
  | .local _ .vmem, ⟨5, _⟩ => ⟨S16x301, .f32⟩
  | .local _ .vmem, ⟨6, _⟩ => ⟨S16x301, .f32⟩
  | .local _ .vmem, ⟨7, _⟩ => ⟨S301, .f32⟩
  | .local _ .vmem, ⟨8, _⟩ => ⟨S16x4x301x12, .f32⟩
  | .local _ .vmem, ⟨9, _⟩ => ⟨S16x4x301x12, .f32⟩
  | .local _ .vmem, ⟨10, _⟩ => ⟨S16x301, .f32⟩
  | .local _ .vmem, ⟨11, _⟩ => ⟨S16x301, .f32⟩
  | _, _ => ⟨S10000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x301 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x301 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x301 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S301 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x4x301x12 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x301 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1000x2000_S1000x2000_0_0 : ∀ a, (![0, 0] : Fin 2 → Nat) a + S1000x2000.size a ≤ S1000x2000.size a
  h_S1000x2000 : 0 < S1000x2000.numel
  bitsLt_bf16_f32 : FTy.bits .bf16 < FTy.bits .f32
  inb_S2000x301_S2000x301_0_0 : ∀ a, (![0, 0] : Fin 2 → Nat) a + S2000x301.size a ≤ S2000x301.size a
  h_S2000x301 : 0 < S2000x301.numel
  inb_S1000x301_S1000x301_0_0 : ∀ a, (![0, 0] : Fin 2 → Nat) a + S1000x301.size a ≤ S1000x301.size a
  h_S1000x301 : 0 < S1000x301.numel
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x301_0_1 : S330000x1.BroadcastsInDim S330000x301 (![0, 1] : Fin 2 → Fin S330000x301.rank)
  bcast_S_S10000x301 : S_.BroadcastsInDim S10000x301 (![] : Fin 0 → Fin S10000x301.rank)
  inb_S16x301_S16x301_0_0 : ∀ a, (![0, 0] : Fin 2 → Nat) a + S16x301.size a ≤ S16x301.size a
  h_S16x301 : 0 < S16x301.numel
  shapeCasts_S16x301_S16x301 : S16x301.ShapeCasts S16x301
  inb_S301_S301_0 : ∀ a, (![0] : Fin 1 → Nat) a + S301.size a ≤ S301.size a
  h_S301 : 0 < S301.numel
  shapeCasts_S301_S1x301 : S301.ShapeCasts S1x301
  broadcasts_S1x301_S16x301 : S1x301.Broadcasts S16x301
  shapeCasts_S16x301_S16x1x301x1 : S16x301.ShapeCasts S16x1x301x1
  shapeCasts_S16x1x301x1_S16x1x301x1 : S16x1x301x1.ShapeCasts S16x1x301x1
  broadcasts_S16x1x301x1_S16x4x301x12 : S16x1x301x1.Broadcasts S16x4x301x12
  inb_S16x4x301x12_S16x4x301x12_0_0_0_0 : ∀ a, (![0, 0, 0, 0] : Fin 4 → Nat) a + S16x4x301x12.size a ≤ S16x4x301x12.size a
  h_S16x4x301x12 : 0 < S16x4x301x12.numel
  dot_S1000x2000_S2000x301_S1000x301_1_0_0_1_n_n_wf : DotDims.WF S1000x2000 S2000x301 S1000x301 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x301_S330000x1_S330000x301_1_0_n_n_0_1_1301_wf : GatherDims.WF S10000x301 S330000x1 S330000x301 [1] [0] [] [0] [] 1 ![1, 301]
  scatter_S10000x301_S330000x1_S330000x301_1_0_0_1_wf : ScatterDims.WF S10000x301 S330000x1 S330000x301 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2000.size a ≤ S10000x2000.size a
  hwx0_0 : ∀ i : grid0.Coords, EltTy.bits .f32 = 32 ∨ (Rect.block (s := S10000x2000) S1000x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x301.size a ≤ S2000x301.size a
  hwx0_1 : ∀ i : grid0.Coords, EltTy.bits .f32 = 32 ∨ (Rect.block (s := S2000x301) S2000x301.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x301.size a ≤ S10000x301.size a
  hwx0_2 : ∀ i : grid0.Coords, EltTy.bits .f32 = 32 ∨ (Rect.block (s := S10000x301) S1000x301.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x301.size a ≤ S10000x301.size a
  hwx1_0 : ∀ i : grid1.Coords, EltTy.bits .f32 = 32 ∨ (Rect.block (s := S10000x301) S16x301.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S301.size a ≤ S301.size a
  hwx1_1 : ∀ i : grid1.Coords, EltTy.bits .f32 = 32 ∨ (Rect.block (s := S301) S301.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x4x301x12.size a ≤ S10000x4x301x12.size a
  hwx1_2 : ∀ i : grid1.Coords, EltTy.bits .f32 = 32 ∨ (Rect.block (s := S10000x4x301x12) S16x4x301x12.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x301.size a ≤ S10000x301.size a
  hwx1_3 : ∀ i : grid1.Coords, EltTy.bits .f32 = 32 ∨ (Rect.block (s := S10000x301) S16x301.size (cc1_transform_3 i) (hinb1_3 i)).WholeWords (EltTy.packing .f32)

variable [Facts₀]

def dot_S1000x2000_S2000x301_S1000x301_1_0_0_1_n_n : DotDims S1000x2000 S2000x301 S1000x301 where
  lhsContracting := [1]
  rhsContracting := [0]
  lhsNonContracting := [0]
  rhsNonContracting := [1]
  lhsBatch := []
  rhsBatch := []
  wf := dot_S1000x2000_S2000x301_S1000x301_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x301_S330000x1_S330000x301_1_0_n_n_0_1_1301 : GatherDims S10000x301 S330000x1 S330000x301 where
  offsetDims := [1]
  collapsedSliceDims := [0]
  operandBatchingDims := []
  startIndicesBatchingDims := []
  startIndexMap := [0]
  indexVectorDim := 1
  sliceSizes := ![1, 301]
  wf := gather_S10000x301_S330000x1_S330000x301_1_0_n_n_0_1_1301_wf
def scatter_S10000x301_S330000x1_S330000x301_1_0_0_1 : ScatterDims S10000x301 S330000x1 S330000x301 where
  updateWindowDims := [1]
  insertedWindowDims := [0]
  scatterDimsToOperandDims := [0]
  indexVectorDim := 1
  wf := scatter_S10000x301_S330000x1_S330000x301_1_0_0_1_wf

abbrev win0_0 : Pipeline.Window sig grid0 :=
  Pipeline.Window.ofSpec (Memref.whole main_arg0) S1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x301.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x301.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S16x301.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S301.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S16x4x301x12.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46_1) S16x301.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x2000 : Shape := ⟨2, ![10000, 2000]⟩
abbrev S2x320000 : Shape := ⟨2, ![2, 320000]⟩
abbrev S320000 : Shape := ⟨1, ![320000]⟩
abbrev S10000x2 : Shape := ⟨2, ![10000, 2]⟩
abbrev S2000x301 : Shape := ⟨2, ![2000, 301]⟩
abbrev S301 : Shape := ⟨1, ![301]⟩
abbrev S10000x301 : Shape := ⟨2, ![10000, 301]⟩
abbrev S10000 : Shape := ⟨1, ![10000]⟩
abbrev S1x320000 : Shape := ⟨2, ![1, 320000]⟩
abbrev S330000 : Shape := ⟨1, ![330000]⟩
abbrev S_ : Shape := ⟨0, ![]⟩
abbrev S330000x1 : Shape := ⟨2, ![330000, 1]⟩
abbrev S330000x301 : Shape := ⟨2, ![330000, 301]⟩
abbrev S1x301 : Shape := ⟨2, ![1, 301]⟩
abbrev S10000x1x301x1 : Shape := ⟨4, ![10000, 1, 301, 1]⟩
abbrev S1x10000x1x1x1x301x1x1 : Shape := ⟨8, ![1, 10000, 1, 1, 1, 301, 1, 1]⟩
abbrev S1x10000x4x1x1x301x12x1 : Shape := ⟨8, ![1, 10000, 4, 1, 1, 301, 12, 1]⟩
abbrev S10000x4x301x12 : Shape := ⟨4, ![10000, 4, 301, 12]⟩

abbrev nBuf : Space → Nat
  | .hbm => 75
  | .vmem => 0
  | .smem => 0
  | _ => 0

abbrev bufTy : (tb : Table) → Fin (tcTables nBuf tb) → BufTy
  | .hbm, ⟨0, _⟩ => ⟨S10000x2000, .f32⟩
  | .hbm, ⟨1, _⟩ => ⟨S2x320000, .i32⟩
  | .hbm, ⟨2, _⟩ => ⟨S320000, .f32⟩
  | .hbm, ⟨3, _⟩ => ⟨S10000x2, .f32⟩
  | .hbm, ⟨4, _⟩ => ⟨S2000x301, .f32⟩
  | .hbm, ⟨5, _⟩ => ⟨S301, .f32⟩
  | .hbm, ⟨6, _⟩ => ⟨S10000x301, .f32⟩
  | .hbm, ⟨7, _⟩ => ⟨S10000, .i32⟩
  | .hbm, ⟨8, _⟩ => ⟨S1x320000, .i32⟩
  | .hbm, ⟨9, _⟩ => ⟨S320000, .i32⟩
  | .hbm, ⟨10, _⟩ => ⟨S330000, .i32⟩
  | .hbm, ⟨11, _⟩ => ⟨S1x320000, .i32⟩
  | .hbm, ⟨12, _⟩ => ⟨S320000, .i32⟩
  | .hbm, ⟨13, _⟩ => ⟨S330000, .i32⟩
  | .hbm, ⟨14, _⟩ => ⟨S_, .f32⟩
  | .hbm, ⟨15, _⟩ => ⟨S10000, .f32⟩
  | .hbm, ⟨16, _⟩ => ⟨S330000, .f32⟩
  | .hbm, ⟨17, _⟩ => ⟨S_, .f32⟩
  | .hbm, ⟨18, _⟩ => ⟨S10000, .f32⟩
  | .hbm, ⟨19, _⟩ => ⟨S330000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S10000, .f32⟩
  | .hbm, ⟨25, _⟩ => ⟨S_, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .i32⟩
  | .hbm, ⟨30, _⟩ => ⟨S330000, .i32⟩
  | .hbm, ⟨31, _⟩ => ⟨S330000, .i1⟩
  | .hbm, ⟨32, _⟩ => ⟨S_, .i32⟩
  | .hbm, ⟨33, _⟩ => ⟨S330000, .i32⟩
  | .hbm, ⟨34, _⟩ => ⟨S330000, .i32⟩
  | .hbm, ⟨35, _⟩ => ⟨S330000, .i32⟩
  | .hbm, ⟨36, _⟩ => ⟨S330000x1, .i32⟩
  | .hbm, ⟨37, _⟩ => ⟨S330000, .f32⟩
  | .hbm, ⟨38, _⟩ => ⟨S330000, .f32⟩
  | .hbm, ⟨39, _⟩ => ⟨S_, .i32⟩
  | .hbm, ⟨40, _⟩ => ⟨S330000, .i32⟩
  | .hbm, ⟨41, _⟩ => ⟨S330000, .i1⟩
  | .hbm, ⟨42, _⟩ => ⟨S_, .i32⟩
  | .hbm, ⟨43, _⟩ => ⟨S330000, .i32⟩
  | .hbm, ⟨44, _⟩ => ⟨S330000, .i32⟩
  | .hbm, ⟨45, _⟩ => ⟨S330000, .i32⟩
  | .hbm, ⟨46, _⟩ => ⟨S330000x1, .i32⟩
  | .hbm, ⟨47, _⟩ => ⟨S330000, .f32⟩
  | .hbm, ⟨48, _⟩ => ⟨S330000, .f32⟩
  | .hbm, ⟨49, _⟩ => ⟨S_, .i32⟩
  | .hbm, ⟨50, _⟩ => ⟨S330000, .i32⟩
  | .hbm, ⟨51, _⟩ => ⟨S330000, .i1⟩
  | .hbm, ⟨52, _⟩ => ⟨S_, .i32⟩
  | .hbm, ⟨53, _⟩ => ⟨S330000, .i32⟩
  | .hbm, ⟨54, _⟩ => ⟨S330000, .i32⟩
  | .hbm, ⟨55, _⟩ => ⟨S330000, .i32⟩
  | .hbm, ⟨56, _⟩ => ⟨S330000x1, .i32⟩
  | .hbm, ⟨57, _⟩ => ⟨S330000x301, .f32⟩
  | .hbm, ⟨58, _⟩ => ⟨S330000x1, .f32⟩
  | .hbm, ⟨59, _⟩ => ⟨S330000x301, .f32⟩
  | .hbm, ⟨60, _⟩ => ⟨S330000x301, .f32⟩
  | .hbm, ⟨61, _⟩ => ⟨S_, .f32⟩
  | .hbm, ⟨62, _⟩ => ⟨S10000x301, .f32⟩
  | .hbm, ⟨63, _⟩ => ⟨S330000x1, .i32⟩
  | .hbm, ⟨64, _⟩ => ⟨S10000x301, .f32⟩
  | .hbm, ⟨65, _⟩ => ⟨S1x301, .f32⟩
  | .hbm, ⟨66, _⟩ => ⟨S10000x301, .f32⟩
  | .hbm, ⟨67, _⟩ => ⟨S10000x301, .f32⟩
  | .hbm, ⟨68, _⟩ => ⟨S_, .f32⟩
  | .hbm, ⟨69, _⟩ => ⟨S10000x301, .f32⟩
  | .hbm, ⟨70, _⟩ => ⟨S10000x301, .f32⟩
  | .hbm, ⟨71, _⟩ => ⟨S10000x1x301x1, .f32⟩
  | .hbm, ⟨72, _⟩ => ⟨S1x10000x1x1x1x301x1x1, .f32⟩
  | .hbm, ⟨73, _⟩ => ⟨S1x10000x4x1x1x301x12x1, .f32⟩
  | .hbm, ⟨74, _⟩ => ⟨S10000x4x301x12, .f32⟩
  | _, _ => ⟨S10000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x301_0_1 : S330000x1.BroadcastsInDim S330000x301 (![0, 1] : Fin 2 → Fin S330000x301.rank)
  bcast_S_S10000x301 : S_.BroadcastsInDim S10000x301 (![] : Fin 0 → Fin S10000x301.rank)
  bcast_S301_S1x301_1 : S301.BroadcastsInDim S1x301 (![1] : Fin 1 → Fin S1x301.rank)
  bcast_S1x301_S10000x301_0_1 : S1x301.BroadcastsInDim S10000x301 (![0, 1] : Fin 2 → Fin S10000x301.rank)
  bcast_S10000x301_S10000x1x301x1_0_2 : S10000x301.BroadcastsInDim S10000x1x301x1 (![0, 2] : Fin 2 → Fin S10000x1x301x1.rank)
  shapeCasts_S10000x1x301x1_S1x10000x1x1x1x301x1x1 : S10000x1x301x1.ShapeCasts S1x10000x1x1x1x301x1x1
  bcast_S1x10000x1x1x1x301x1x1_S1x10000x4x1x1x301x12x1_0_1_2_3_4_5_6_7 : S1x10000x1x1x1x301x1x1.BroadcastsInDim S1x10000x4x1x1x301x12x1 (![0, 1, 2, 3, 4, 5, 6, 7] : Fin 8 → Fin S1x10000x4x1x1x301x12x1.rank)
  shapeCasts_S1x10000x4x1x1x301x12x1_S10000x4x301x12 : S1x10000x4x1x1x301x12x1.ShapeCasts S10000x4x301x12
  dot_S10000x2000_S2000x301_S10000x301_1_0_0_1_n_n_wf : DotDims.WF S10000x2000 S2000x301 S10000x301 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x301_S330000x1_S330000x301_1_0_n_n_0_1_1301_wf : GatherDims.WF S10000x301 S330000x1 S330000x301 [1] [0] [] [0] [] 1 ![1, 301]
  scatter_S10000x301_S330000x1_S330000x301_1_0_0_1_wf : ScatterDims.WF S10000x301 S330000x1 S330000x301 [1] [0] [0] 1

variable [Facts₀]

def dot_S10000x2000_S2000x301_S10000x301_1_0_0_1_n_n : DotDims S10000x2000 S2000x301 S10000x301 where
  lhsContracting := [1]
  rhsContracting := [0]
  lhsNonContracting := [0]
  rhsNonContracting := [1]
  lhsBatch := []
  rhsBatch := []
  wf := dot_S10000x2000_S2000x301_S10000x301_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x301_S330000x1_S330000x301_1_0_n_n_0_1_1301 : GatherDims S10000x301 S330000x1 S330000x301 where
  offsetDims := [1]
  collapsedSliceDims := [0]
  operandBatchingDims := []
  startIndicesBatchingDims := []
  startIndexMap := [0]
  indexVectorDim := 1
  sliceSizes := ![1, 301]
  wf := gather_S10000x301_S330000x1_S330000x301_1_0_n_n_0_1_1301_wf
def scatter_S10000x301_S330000x1_S330000x301_1_0_0_1 : ScatterDims S10000x301 S330000x1 S330000x301 where
  updateWindowDims := [1]
  insertedWindowDims := [0]
  scatterDimsToOperandDims := [0]
  indexVectorDim := 1
  wf := scatter_S10000x301_S330000x1_S330000x301_1_0_0_1_wf

class Facts : Prop extends Facts₀ where

variable [Facts]
-- ==== Proof.KernelRun.lean ====
/-
  The kernel program's run, with every buffer named.

  @main is five segments: the matrix-product region, three stretches of host operations (the graph aggregation, cut
  where the outlined select is called), and the bias / clamp / tile region. The contents of the TensorCore's buffers
  at each boundary are a fold through those segments: `W0` at launch, `W1` after the first region (its result array
  at what its write-backs leave), `W2`, `W3`, `W4` after the host stretches, `W5` after the second region. Every
  weakly fair execution terminates, without a fault, with EVERY unscoped buffer at `W5` (`run_all`); read at the two
  result arrays and at the six arguments this is `run_named`: the results are what the second region's write-backs
  leave, entered from `W4`, and the arguments are as launched.
-/
import proofs.«170376_j78546361909531_2_alg».proof.Proof.Gen.KernelIdeal.Frame

set_option maxRecDepth 16384

noncomputable section

namespace Cert.Gcn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run read at the results and at the arguments: each result array is what the second region's write-backs
    leave, the region entered from the contents `V4`; each argument is as launched. -/
theorem run_named : θ_run defs (onTc (τ := τ) (main (F := F))) ⟨m, fun _ => 0, ρ⟩ (fun r => ∀ c : Dev nD,
      r.2.mem ((c.tc : Thread nD τ).loc main_v46_0) = (dat1 (V4 m ρ) c).arrAt 2 cfg1.N
      ∧ r.2.mem ((c.tc : Thread nD τ).loc main_v46_1) = (dat1 (V4 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v46_0 (by decide))).trans (W5_arr m ρ c 2),
       (h c _ (mem_uc main_v46_1 (by decide))).trans (W5_arr m ρ c 3),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (run_all m ρ)

end Cert.Gcn.Run

end
-- ==== Proof.Spec.lean ====
/-
  What the two programs compute, as functions of the argument arrays, index by index, on the extended reals.

  With x the node features (10000 × 2000), W the weights (2000 × 301), b the bias (301):
    * `matProd x W` is the matrix product, entry (p, q) the sum over k of x(p, k) · W(k, q);
    * `biasRelu a b` adds the bias along the feature axis and clamps below at zero: entry (n, d) is
      max (a(n, d) + b(d)) 0;
    * `tiled h` repeats a 10000 × 301 array over a head axis of 4 and a per-head axis of 12: entry (n, h', d, j)
      is h(n, d).
  The graph aggregation that sits between the product and the bias is the same chain of host operations in both
  programs; it is named once, beside the reference's stages, and never opened.
-/
import proofs.«170376_j78546361909531_2_alg».proof.KernelIdeal
import Idealize.ShloMosaic.PureOps.Ideal
import Idealize.ShloMosaic.Lib.ValueIdx

noncomputable section

namespace Cert.Gcn

open Idealize.ShloMosaic Cert.KernelIdeal

/-- Row p of the features at the contracted position k, for the product's entry (p, q). -/
abbrev lix (i : S10000x301.Idx) (k : Fin 2000) : S10000x2000.Idx := fun a => match a with
  | ⟨0, _⟩ => ⟨(i 0).val, (i 0).isLt⟩
  | ⟨1, _⟩ => ⟨k.val, k.isLt⟩

/-- Column q of the weights at the contracted position k, for the product's entry (p, q). -/
abbrev rix (i : S10000x301.Idx) (k : Fin 2000) : S2000x301.Idx := fun a => match a with
  | ⟨0, _⟩ => ⟨k.val, k.isLt⟩
  | ⟨1, _⟩ => ⟨(i 1).val, (i 1).isLt⟩

/-- The matrix product x · W: entry (p, q) is the sum over k of x(p, k) · W(k, q). -/
def matProd (x : (⟨S10000x2000, .f32⟩ : BufTy).Contents (Elt Ideal)) (w : (⟨S2000x301, .f32⟩ : BufTy).Contents (Elt Ideal)) :
    (⟨S10000x301, .f32⟩ : BufTy).Contents (Elt Ideal) :=
  fun i => ∑ k : Fin 2000, x (lix i k) * w (rix i k)

/-- The bias entry that meets entry (n, d): b(d). -/
abbrev bix (i : S10000x301.Idx) : S301.Idx := fun a => match a with
  | ⟨0, _⟩ => ⟨(i 1).val, (i 1).isLt⟩

/-- Bias, then the clamp at zero: entry (n, d) is max (a(n, d) + b(d)) 0. -/
def biasRelu (a : (⟨S10000x301, .f32⟩ : BufTy).Contents (Elt Ideal)) (b : (⟨S301, .f32⟩ : BufTy).Contents (Elt Ideal)) :
    (⟨S10000x301, .f32⟩ : BufTy).Contents (Elt Ideal) :=
  fun i => FloatOps.maximumf (F := Ideal) (φ := .f32) (FloatOps.addf (a i) (b (bix i))) (FloatOps.ofBits .f32 0x00000000#32)

/-- The entry (n, d) that the tiled entry (n, h', d, j) repeats. -/
abbrev hix (i : S10000x4x301x12.Idx) : S10000x301.Idx := fun a => match a with
  | ⟨0, _⟩ => ⟨(i 0).val, (i 0).isLt⟩
  | ⟨1, _⟩ => ⟨(i 2).val, (i 2).isLt⟩

/-- The array repeated over the head axis and the per-head axis: entry (n, h', d, j) is h(n, d). -/
def tiled (h : (⟨S10000x301, .f32⟩ : BufTy).Contents (Elt Ideal)) : (⟨S10000x4x301x12, .f32⟩ : BufTy).Contents (Elt Ideal) :=
  fun i => h (hix i)

end Cert.Gcn

end
-- ==== Proof.LibRank8.lean ====
/-
  Rank-8 indices by coordinates. The row-major position of an index of a rank-8 shape is the nested
  sum of products of its coordinates, last axis fastest: the rank-8 case of the library's
  `Shape.rowMajor_val_one` … `Shape.rowMajor_val_six`. A reshape between a rank-4 shape and the rank-8
  shape that interleaves it with unit axes is read at an index through it.
-/
import Idealize.ShloMosaic.Lib.ValueIdx

namespace Cert.LibRank8

open Idealize.ShloMosaic

/-- Rank 8: the row-major position as one nested sum of products, the last axis varying fastest. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its eight coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun z => match z with
    | ⟨0, _⟩ => a | ⟨1, _⟩ => b | ⟨2, _⟩ => c | ⟨3, _⟩ => d | ⟨4, _⟩ => e | ⟨5, _⟩ => f | ⟨6, _⟩ => g | ⟨7, _⟩ => h

end Cert.LibRank8
-- ==== Proof.RefValue.lean ====
/-
  The reference program is the specification.

  Its run ends with the embeddings at the stage `val_main_v49` and the tiled output at `val_main_v53` of the argument
  arrays. Read one operation at a time:
    * the `dot_general` of x and W is `matProd x W` (the sum over the one contracted axis);
    * the graph aggregation between the product and the bias — the edge lists with self loops appended, the degree
      by scatter-add, its inverse square root where positive, the per-edge weight, the gather of the product's rows
      at the sources, the scatter-add at the targets — is the chain `agg`, a function of the product, the edge
      list and the edge weights. It is named here and never opened: the kernel's program applies the very same chain;
    * the bias broadcast along rows, the sum and the clamp at zero are `biasRelu`;
    * the broadcast to (10000, 1, 301, 1), the reshape that interleaves unit axes, the broadcast over the head axis
      and the per-head axis and the reshape back to rank 4 are `tiled`: entry (n, h, d, j) reads entry (n, d). The
      two reshapes keep the row-major position, which for the rank-8 shapes is a nested sum of products.
-/
import proofs.«170376_j78546361909531_2_alg».proof.Proof.Gen.ReferenceIdeal.Read
import proofs.«170376_j78546361909531_2_alg».proof.Proof.Spec
import proofs.«170376_j78546361909531_2_alg».proof.Proof.LibRank8

noncomputable section

namespace Cert.Gcn.Ref

open Idealize.ShloMosaic Idealize.ShloMosaic.TcCoe Idealize.SL.Sem
open Cert.ReferenceIdeal Cert.ReferenceIdeal.Gen Cert.ReferenceIdeal.Read Cert.Gcn Cert.LibRank8

/-- The graph aggregation of the transformed features xw: the rows of xw gathered at the edge sources (self loops
    appended, negative indices wrapped), scaled by the symmetrically normalised edge weights, and scatter-added at
    the edge targets into a zero array. A function of xw, the edge list and the edge weights; both programs apply it. -/
def agg (xw : (⟨S10000x301, .f32⟩ : BufTy).Contents (Elt Ideal)) (ei : (⟨S2x320000, .i32⟩ : BufTy).Contents (Elt Ideal))
    (ew : (⟨S320000, .f32⟩ : BufTy).Contents (Elt Ideal)) : (⟨S10000x301, .f32⟩ : BufTy).Contents (Elt Ideal) :=
  Host.scatterAdd (F := Ideal) (φ := .f32) scatter_S10000x301_S330000x1_S330000x301_1_0_0_1 (val_main_v43 (F := Ideal)) (val_main_v44 (F := Ideal) ei)
    (mulf (F := Ideal) (φ := .f32) (Host.gather (α := Ideal .f32) gather_S10000x301_S330000x1_S330000x301_1_0_n_n_0_1_1301 xw (val_main_v38 (F := Ideal) ei))
      (val_main_v41 (F := Ideal) ei ew))

/-- The reference's aggregated features are `agg` of its product. -/
theorem stage_agg (x0 : (⟨S10000x2000, .f32⟩ : BufTy).Contents (Elt Ideal)) (x1 : (⟨S2x320000, .i32⟩ : BufTy).Contents (Elt Ideal))
    (x2 : (⟨S320000, .f32⟩ : BufTy).Contents (Elt Ideal)) (x4 : (⟨S2000x301, .f32⟩ : BufTy).Contents (Elt Ideal)) :
    val_main_v45 (F := Ideal) x0 x1 x2 x4 = agg (val_main_v0 (F := Ideal) x0 x4) x1 x2 := rfl

/-- The reference's `dot_general` is the matrix product. -/
theorem stage_prod (x0 : (⟨S10000x2000, .f32⟩ : BufTy).Contents (Elt Ideal)) (x4 : (⟨S2000x301, .f32⟩ : BufTy).Contents (Elt Ideal)) :
    val_main_v0 (F := Ideal) x0 x4 = matProd x0 x4 := by
  funext i
  rw [val_main_v0_apply]
  refine Finset.sum_congr rfl fun k _ => ?_
  have el : lidx_main_v0 i k = lix i k := funext fun a => by match a with | ⟨0, _⟩ => rfl | ⟨1, _⟩ => rfl
  have er : ridx_main_v0 i k = rix i k := funext fun a => by match a with | ⟨0, _⟩ => rfl | ⟨1, _⟩ => rfl
  rw [el, er]

/-- The reference's embeddings are `biasRelu` of its aggregated features and the bias. -/
theorem stage_emb (x0 : (⟨S10000x2000, .f32⟩ : BufTy).Contents (Elt Ideal)) (x1 : (⟨S2x320000, .i32⟩ : BufTy).Contents (Elt Ideal))
    (x2 : (⟨S320000, .f32⟩ : BufTy).Contents (Elt Ideal)) (x4 : (⟨S2000x301, .f32⟩ : BufTy).Contents (Elt Ideal))
    (x5 : (⟨S301, .f32⟩ : BufTy).Contents (Elt Ideal)) :
    val_main_v49 (F := Ideal) x0 x1 x2 x4 x5 = biasRelu (val_main_v45 (F := Ideal) x0 x1 x2 x4) x5 := by
  funext i
  rw [val_main_v49_apply, val_main_v48_apply, val_main_v47_apply, val_main_v46_apply, val_main_call1_v0_apply,
    val_main_call1_cst_apply]
  have e : idx_main_v46 (idx_main_v47 i) = bix i := funext fun a => by match a with | ⟨0, _⟩ => rfl
  rw [e]
  rfl

/-- (0, n, h, 0, 0, d, j, 0): the tiled entry (n, h, d, j) in the rank-8 shape with unit axes interleaved. -/
abbrev wide (i : S10000x4x301x12.Idx) : S1x10000x4x1x1x301x12x1.Idx := fun a => match a with
  | ⟨0, _⟩ => ⟨0, Nat.one_pos⟩
  | ⟨1, _⟩ => ⟨(i 0).val, (i 0).isLt⟩
  | ⟨2, _⟩ => ⟨(i 1).val, (i 1).isLt⟩
  | ⟨3, _⟩ => ⟨0, Nat.one_pos⟩
  | ⟨4, _⟩ => ⟨0, Nat.one_pos⟩
  | ⟨5, _⟩ => ⟨(i 2).val, (i 2).isLt⟩
  | ⟨6, _⟩ => ⟨(i 3).val, (i 3).isLt⟩
  | ⟨7, _⟩ => ⟨0, Nat.one_pos⟩

/-- (n, 0, d, 0): the embeddings entry (n, d) with two unit axes put in. -/
abbrev thin (i : S10000x4x301x12.Idx) : S10000x1x301x1.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨0, Nat.one_pos⟩

/-- The reference's tiled output repeats its embeddings over the head axis and the per-head axis. -/
theorem stage_out (x0 : (⟨S10000x2000, .f32⟩ : BufTy).Contents (Elt Ideal)) (x1 : (⟨S2x320000, .i32⟩ : BufTy).Contents (Elt Ideal))
    (x2 : (⟨S320000, .f32⟩ : BufTy).Contents (Elt Ideal)) (x4 : (⟨S2000x301, .f32⟩ : BufTy).Contents (Elt Ideal))
    (x5 : (⟨S301, .f32⟩ : BufTy).Contents (Elt Ideal)) :
    val_main_v53 (F := Ideal) x0 x1 x2 x4 x5 = tiled (val_main_v49 (F := Ideal) x0 x1 x2 x4 x5) := by
  funext i
  unfold val_main_v53
  rw [shapeCast_apply (val_main_v52 (F := Ideal) x0 x1 x2 x4 x5) shapeCasts_S1x10000x4x1x1x301x12x1_S10000x4x301x12 i (wide i) (by
      rw [rowMajor_val_eight, Shape.rowMajor_val_four]
      show (((((((0 * 10000 + (i 0).val) * 4 + (i 1).val) * 1 + 0) * 1 + 0) * 301 + (i 2).val) * 12 + (i 3).val) * 1 + 0)
        = (((i 0).val * 4 + (i 1).val) * 301 + (i 2).val) * 12 + (i 3).val
      omega),
    val_main_v52_apply]
  unfold val_main_v51
  rw [shapeCast_apply (val_main_v50 (F := Ideal) x0 x1 x2 x4 x5) shapeCasts_S10000x1x301x1_S1x10000x1x1x1x301x1x1 (idx_main_v52 (wide i)) (thin i) (by
      rw [Shape.rowMajor_val_four, rowMajor_val_eight]
      show (((i 0).val * 1 + 0) * 301 + (i 2).val) * 1 + 0
        = (((((((0 * 10000 + (i 0).val) * 1 + 0) * 1 + 0) * 1 + 0) * 301 + (i 2).val) * 1 + 0) * 1 + 0)
      omega),
    val_main_v50_apply]
  exact congrArg _ (funext fun a => by match a with | ⟨0, _⟩ => rfl | ⟨1, _⟩ => rfl)

/-- The reference's two results, as the specification's functions of the argument arrays. -/
theorem emb_eq (x0 : (⟨S10000x2000, .f32⟩ : BufTy).Contents (Elt Ideal)) (x1 : (⟨S2x320000, .i32⟩ : BufTy).Contents (Elt Ideal))
    (x2 : (⟨S320000, .f32⟩ : BufTy).Contents (Elt Ideal)) (x4 : (⟨S2000x301, .f32⟩ : BufTy).Contents (Elt Ideal))
    (x5 : (⟨S301, .f32⟩ : BufTy).Contents (Elt Ideal)) :
    val_main_v49 (F := Ideal) x0 x1 x2 x4 x5 = biasRelu (agg (matProd x0 x4) x1 x2) x5 := by
  rw [stage_emb, stage_agg, stage_prod]

theorem out_eq (x0 : (⟨S10000x2000, .f32⟩ : BufTy).Contents (Elt Ideal)) (x1 : (⟨S2x320000, .i32⟩ : BufTy).Contents (Elt Ideal))
    (x2 : (⟨S320000, .f32⟩ : BufTy).Contents (Elt Ideal)) (x4 : (⟨S2000x301, .f32⟩ : BufTy).Contents (Elt Ideal))
    (x5 : (⟨S301, .f32⟩ : BufTy).Contents (Elt Ideal)) :
    val_main_v53 (F := Ideal) x0 x1 x2 x4 x5 = tiled (biasRelu (agg (matProd x0 x4) x1 x2) x5) := by
  rw [stage_out, emb_eq]

end Cert.Gcn.Ref

end
-- ==== Proof.Region0.lean ====
/-
  The first kernel region: the row-blocked matrix product.

  The grid has 10 points. Point t stages rows [1000·t, 1000·t + 1000) of the features x (all 2000 columns) and the
  whole weight matrix W, and writes back rows [1000·t, 1000·t + 1000) of the result. At the ideal instance the two
  changes of float format are the identity and the matrix unit's pass into a zero accumulator is the plain sum, so
  the block written back at point t holds, at (r, q), the sum over k of x(1000·t + r, k) · W(k, q): block t of the
  one function `matProd x W`. The ten blocks tile the 10000 rows, so after the region the result array IS
  `matProd x W`, whatever the arrays `V` the region is entered with.
-/
import proofs.«170376_j78546361909531_2_alg».proof.Proof.Gen.KernelIdeal.Frame
import proofs.«170376_j78546361909531_2_alg».proof.Proof.Spec
import Idealize.ShloMosaic.Lib.Pipeline.Value
import Idealize.ShloMosaic.Lib.ValueIdx
import Idealize.ShloMosaic.PureOps.Ideal.Laws

noncomputable section

namespace Cert.Gcn.Product

open Cert.KernelIdeal Cert.KernelIdeal.Gen Cert.Gcn Idealize.ShloMosaic Idealize.ShloMosaic.TcCoe Idealize.SL.Sem
open Idealize.ShloMosaic.Pipeline (Dat)

/-! ## The body's result at an index -/

/-- Row r of the staged block of x at the contracted position k. -/
abbrev lixB (j : S1000x301.Idx) (k : Fin 2000) : S1000x2000.Idx := fun a => match a with
  | ⟨0, _⟩ => ⟨(j 0).val, (j 0).isLt⟩
  | ⟨1, _⟩ => ⟨k.val, k.isLt⟩

/-- Column q of the staged W at the contracted position k. -/
abbrev rixB (j : S1000x301.Idx) (k : Fin 2000) : S2000x301.Idx := fun a => match a with
  | ⟨0, _⟩ => ⟨k.val, k.isLt⟩
  | ⟨1, _⟩ => ⟨(j 1).val, (j 1).isLt⟩

theorem lhs_0 (j : S1000x301.Idx) (q : dot_S1000x2000_S2000x301_S1000x301_1_0_0_1_n_n.contr.Idx) :
    (dot_S1000x2000_S2000x301_S1000x301_1_0_0_1_n_n.lhsIdx j q 0).val = (j 0).val := by
  unfold DotDims.lhsIdx
  rw [dif_neg (show ¬(0 : Fin S1000x2000.rank) ∈ dot_S1000x2000_S2000x301_S1000x301_1_0_0_1_n_n.lhsBatch by decide),
    dif_pos (show (0 : Fin S1000x2000.rank) ∈ dot_S1000x2000_S2000x301_S1000x301_1_0_0_1_n_n.lhsNonContracting by decide)]
  rfl
theorem lhs_1 (j : S1000x301.Idx) (q : dot_S1000x2000_S2000x301_S1000x301_1_0_0_1_n_n.contr.Idx) :
    (dot_S1000x2000_S2000x301_S1000x301_1_0_0_1_n_n.lhsIdx j q 1).val = (q ⟨0, by decide⟩).val :=
  dot_S1000x2000_S2000x301_S1000x301_1_0_0_1_n_n.lhsIdx_val_of_single rfl j q
theorem rhs_0 (j : S1000x301.Idx) (q : dot_S1000x2000_S2000x301_S1000x301_1_0_0_1_n_n.contr.Idx) :
    (dot_S1000x2000_S2000x301_S1000x301_1_0_0_1_n_n.rhsIdx j q 0).val = (q ⟨0, by decide⟩).val :=
  dot_S1000x2000_S2000x301_S1000x301_1_0_0_1_n_n.rhsIdx_val_of_single rfl j q
theorem rhs_1 (j : S1000x301.Idx) (q : dot_S1000x2000_S2000x301_S1000x301_1_0_0_1_n_n.contr.Idx) :
    (dot_S1000x2000_S2000x301_S1000x301_1_0_0_1_n_n.rhsIdx j q 1).val = (j 1).val := by
  unfold DotDims.rhsIdx
  rw [dif_neg (show ¬(1 : Fin S2000x301.rank) ∈ dot_S1000x2000_S2000x301_S1000x301_1_0_0_1_n_n.rhsBatch by decide),
    dif_pos (show (1 : Fin S2000x301.rank) ∈ dot_S1000x2000_S2000x301_S1000x301_1_0_0_1_n_n.rhsNonContracting by decide)]
  rfl

/-- The body's one stored value, read at (r, q): the sum over k of the staged x at (r, k) times the staged W at (k, q).
    The two narrowings to bf16 are the identity on the extended reals, and the accumulator is the zero splat. -/
theorem pay_apply (x0 : Vec Ideal S1000x2000 .f32) (x1 : Vec Ideal S2000x301 .f32) (j : S1000x301.Idx) :
    k0_pay1 (F := Ideal) x0 x1 j = ∑ k : Fin 2000, x0 (lixB j k) * x1 (rixB j k) := by
  unfold k0_pay1
  show FloatOps.matmul dot_S1000x2000_S2000x301_S1000x301_1_0_0_1_n_n none (truncf (F := Ideal) .bf16 x0 bitsLt_bf16_f32)
    (truncf (F := Ideal) .bf16 x1 bitsLt_bf16_f32) (constant (F := Ideal) S1000x301 .f32 0x00000000#32) j = _
  rw [Ideal.matmul_constant_zero_apply,
    ← Equiv.sum_comp (ValueIdx.contrEquiv1 dot_S1000x2000_S2000x301_S1000x301_1_0_0_1_n_n 2000 rfl rfl).symm]
  refine Finset.sum_congr rfl fun k _ => ?_
  have hk := ValueIdx.contrEquiv1_symm_val dot_S1000x2000_S2000x301_S1000x301_1_0_0_1_n_n 2000 rfl rfl k
  have el : dot_S1000x2000_S2000x301_S1000x301_1_0_0_1_n_n.lhsIdx j
      ((ValueIdx.contrEquiv1 dot_S1000x2000_S2000x301_S1000x301_1_0_0_1_n_n 2000 rfl rfl).symm k) = lixB j k :=
    funext fun a => Fin.ext (by
      match a with
      | ⟨0, _⟩ => exact lhs_0 _ _
      | ⟨1, _⟩ => exact (lhs_1 _ _).trans hk)
  have er : dot_S1000x2000_S2000x301_S1000x301_1_0_0_1_n_n.rhsIdx j
      ((ValueIdx.contrEquiv1 dot_S1000x2000_S2000x301_S1000x301_1_0_0_1_n_n 2000 rfl rfl).symm k) = rixB j k :=
    funext fun a => Fin.ext (by
      match a with
      | ⟨0, _⟩ => exact (rhs_0 _ _).trans hk
      | ⟨1, _⟩ => exact rhs_1 _ _)
  rw [el, er]
  rfl

/-! ## From the blocks to the array -/

variable (V : (c : Dev nD) → (b : Ref sig .tc) → Buf (Elt Ideal) ((c : Thread nD τ).loc b))

theorem origin2 : (![0, 0] : Fin 2 → Nat) = fun _ => 0 := funext fun a => by fin_cases a <;> rfl

/-- The printed index maps, decided over the ten points: the block of x and the block of the result sit at the same
    row block t; the block of x covers every column; W is staged whole. -/
theorem maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the matrix product of the arrays the region is entered with. -/
theorem flushed_eq (c : Dev nD) (t : Fin cfg0.N) :
    (dat0 V c).flushed 2 t
      = ((cfg0.win 2).blk t).view.read (Elt Ideal) (matProd (V c main_arg0) (V c main_arg4)) := by
  show (cfg0.win 2).cut (grid0.coords t) ((dat0 V c).after 2 t) = _
  rw [after0_2]
  unfold out0_2
  rw [View.canon_unit_zero origin2]
  simp only [View.ld_unit_zero (S := S1000x2000) origin2, View.ld_unit_zero (S := S2000x301) origin2]
  obtain ⟨e0, e1, e2, e3, e4, e5⟩ := maps t
  funext j
  refine (pay_apply (iblk0 V c 0 t) (iblk0 V c 1 t) j).trans ?_
  show _ = matProd (V c main_arg0) (V c main_arg4) (((cfg0.win 2).blk t).view.emb j)
  unfold matProd
  refine Finset.sum_congr rfl fun k _ => ?_
  have i0 : ((cfg0.win 0).blk t).view.emb (lixB j k) = lix (((cfg0.win 2).blk t).view.emb j) k := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 2000 + 1 * k.val = k.val; omega
  have i1 : ((cfg0.win 1).blk t).view.emb (rixB j k) = rix (((cfg0.win 2).blk t).view.emb j) k := by
    funext a; apply Fin.ext
    match a with
    | ⟨0, _⟩ => show win0_1.index t (0 : Fin 2) * 2000 + 1 * k.val = k.val; omega
    | ⟨1, _⟩ => show win0_1.index t (1 : Fin 2) * 301 + 1 * (j 1).val = win0_2.index t (1 : Fin 2) * 301 + 1 * (j 1).val; omega
  have h0 : iblk0 V c 0 t (lixB j k) = V c main_arg0 (lix (((cfg0.win 2).blk t).view.emb j) k) := congrArg (V c main_arg0) i0
  have h1 : iblk0 V c 1 t (rixB j k) = V c main_arg4 (rix (((cfg0.win 2).blk t).view.emb j) k) := congrArg (V c main_arg4) i1
  rw [h0, h1]

/-- An index of the result array is in point t's block iff each coordinate is in the block's range on its axis. -/
theorem mem_blk (t : Fin cfg0.N) (i : S10000x301.Idx) :
    i ∈ ((cfg0.win 2).blk t).view.set ↔ ∀ a : Fin 2, win0_2.index t a * S1000x301.size a ≤ (i a).val ∧ (i a).val < win0_2.index t a * S1000x301.size a + S1000x301.size a := by
  show i ∈ ((View.whole main_v0).slice (win0_2.rect t)).set ↔ _
  rw [View.set_slice_whole, Rect.mem_set_unit]
  exact Iff.rfl

/-- Every row lies in the block of the point numbered by its thousand. -/
theorem cover (i : S10000x301.Idx) : ∃ t : Fin cfg0.N, (cfg0.win 2).flush t = true ∧ i ∈ ((cfg0.win 2).blk t).view.set := by
  have hi0 : (i 0).val < 10000 := (i 0).isLt
  have hi1 : (i 1).val < 301 := (i 1).isLt
  have hN : grid0.N = 10 := N_0
  have hlt : (i 0).val / 1000 < grid0.N := by omega
  obtain ⟨-, -, -, -, q0, q1⟩ := maps ⟨(i 0).val / 1000, hlt⟩
  refine ⟨⟨(i 0).val / 1000, hlt⟩, flush0_2 _, ?_⟩
  rw [mem_blk]
  intro a
  match a with
  | ⟨0, _⟩ =>
    show win0_2.index ⟨(i 0).val / 1000, hlt⟩ (0 : Fin 2) * 1000 ≤ (i 0).val ∧ (i 0).val < win0_2.index ⟨(i 0).val / 1000, hlt⟩ (0 : Fin 2) * 1000 + 1000
    have q0' : win0_2.index ⟨(i 0).val / 1000, hlt⟩ (0 : Fin 2) = (i 0).val / 1000 := q0
    omega
  | ⟨1, _⟩ =>
    show win0_2.index ⟨(i 0).val / 1000, hlt⟩ (1 : Fin 2) * 301 ≤ (i 1).val ∧ (i 1).val < win0_2.index ⟨(i 0).val / 1000, hlt⟩ (1 : Fin 2) * 301 + 301
    omega

/-- After the region the result array is the matrix product of the arrays the region is entered with. -/
theorem value (c : Dev nD) : (dat0 V c).arrAt 2 cfg0.N = matProd (V c main_arg0) (V c main_arg4) :=
  (dat0 V c).arrAt_eq_of_cover 2 (matProd (V c main_arg0) (V c main_arg4)) (fun t _ => flushed_eq V c t) cover

end Cert.Gcn.Product

end
-- ==== Proof.Region1.lean ====
/-
  The second kernel region: bias, clamp at zero, and the tiled copy.

  The grid has 625 points. Point t stages rows [16·t, 16·t + 16) of the aggregated features a (all 301 columns) and the
  whole bias b, and writes back two blocks: rows [16·t, 16·t + 16) of the embeddings, holding at (r, d)
  max (a(16·t + r, d) + b(d)) 0, and the slab [16·t, 16·t + 16) × 4 × 301 × 12 of the tiled output, holding at
  (r, h, d, j) that same number. So the blocks written back at point t are block t of `biasRelu a b` and block t of
  `tiled (biasRelu a b)`; the 625 blocks tile the 10000 rows, and after the region the two result arrays ARE those
  two functions of the arrays `V` the region is entered with.
-/
import proofs.«170376_j78546361909531_2_alg».proof.Proof.Gen.KernelIdeal.Frame
import proofs.«170376_j78546361909531_2_alg».proof.Proof.Spec
import Idealize.ShloMosaic.Lib.Pipeline.Value
import Idealize.ShloMosaic.Lib.ValueIdx

noncomputable section

namespace Cert.Gcn.Tail

open Cert.KernelIdeal Cert.KernelIdeal.Gen Cert.Gcn Idealize.ShloMosaic Idealize.ShloMosaic.TcCoe Idealize.SL.Sem
open Idealize.ShloMosaic.Pipeline (Dat)

/-! ## The body's two results at an index -/

/-- The staged bias entry that meets (r, d): b(d). -/
abbrev bixB (j : S16x301.Idx) : S301.Idx := fun a => match a with
  | ⟨0, _⟩ => ⟨(j 1).val, (j 1).isLt⟩

/-- (0, d): where the bias, seen as one row, is read for the entry (r, d). -/
abbrev rowB (j : S16x301.Idx) : S1x301.Idx := fun a => match a with
  | ⟨0, _⟩ => ⟨0, Nat.one_pos⟩
  | ⟨1, _⟩ => ⟨(j 1).val, (j 1).isLt⟩

/-- The stored embeddings block at (r, d): the staged a at (r, d) plus the staged bias at d, clamped below at zero. -/
theorem emb_apply (x0 : Vec Ideal S16x301 .f32) (x1 : Vec Ideal S301 .f32) (j : S16x301.Idx) :
    k1_pay1 (F := Ideal) x0 x1 j
      = FloatOps.maximumf (F := Ideal) (φ := .f32) (FloatOps.addf (x0 j) (x1 (bixB j))) (FloatOps.ofBits .f32 0x00000000#32) := by
  unfold k1_pay1
  show FloatOps.maximumf (F := Ideal) (φ := .f32)
      (FloatOps.addf (shapeCast S16x301 x0 shapeCasts_S16x301_S16x301 j)
        (broadcastTo S16x301 (shapeCast S1x301 x1 shapeCasts_S301_S1x301) broadcasts_S1x301_S16x301 j))
      (FloatOps.ofBits .f32 0x00000000#32) = _
  rw [shapeCast_self,
    broadcastTo_apply (shapeCast S1x301 x1 shapeCasts_S301_S1x301) broadcasts_S1x301_S16x301 j (rowB j) (fun a => match a with
      | ⟨0, _⟩ => by show 0 = if (1 : Nat) = 1 then 0 else _; rw [if_pos rfl]
      | ⟨1, _⟩ => by show (j 1).val = if (301 : Nat) = 1 then 0 else (j 1).val; rw [if_neg (by decide)]),
    shapeCast_apply x1 shapeCasts_S301_S1x301 (rowB j) (bixB j) (by
      rw [Shape.rowMajor_val_one, Shape.rowMajor_val_two]
      show (j 1).val = 0 * 301 + (j 1).val
      omega)]

/-- The entry (r, d) of the embeddings block that the tiled block repeats at (r, h, d, j). -/
abbrev hixB (j : S16x4x301x12.Idx) : S16x301.Idx := fun a => match a with
  | ⟨0, _⟩ => ⟨(j 0).val, (j 0).isLt⟩
  | ⟨1, _⟩ => ⟨(j 2).val, (j 2).isLt⟩

/-- (r, 0, d, 0): the embeddings block with two unit axes put in, read for the tiled entry (r, h, d, j). -/
abbrev unitB (j : S16x4x301x12.Idx) : S16x1x301x1.Idx := fun a => match a with
  | ⟨0, _⟩ => ⟨(j 0).val, (j 0).isLt⟩
  | ⟨1, _⟩ => ⟨0, Nat.one_pos⟩
  | ⟨2, _⟩ => ⟨(j 2).val, (j 2).isLt⟩
  | ⟨3, _⟩ => ⟨0, Nat.one_pos⟩

/-- The stored tiled block at (r, h, d, j) is the stored embeddings block at (r, d). -/
theorem tile_apply (x0 : Vec Ideal S16x301 .f32) (x1 : Vec Ideal S301 .f32) (j : S16x4x301x12.Idx) :
    k1_pay2 (F := Ideal) x0 x1 j = k1_pay1 (F := Ideal) x0 x1 (hixB j) := by
  unfold k1_pay2
  generalize k1_pay1 (F := Ideal) x0 x1 = y
  show broadcastTo S16x4x301x12 (shapeCast S16x1x301x1 (shapeCast S16x1x301x1 y shapeCasts_S16x301_S16x1x301x1) shapeCasts_S16x1x301x1_S16x1x301x1)
      broadcasts_S16x1x301x1_S16x4x301x12 j = y (hixB j)
  rw [shapeCast_self,
    broadcastTo_apply (shapeCast S16x1x301x1 y shapeCasts_S16x301_S16x1x301x1) broadcasts_S16x1x301x1_S16x4x301x12 j (unitB j) (fun a => match a with
      | ⟨0, _⟩ => by show (j 0).val = if (16 : Nat) = 1 then 0 else (j 0).val; rw [if_neg (by decide)]
      | ⟨1, _⟩ => by show 0 = if (1 : Nat) = 1 then 0 else _; rw [if_pos rfl]
      | ⟨2, _⟩ => by show (j 2).val = if (301 : Nat) = 1 then 0 else (j 2).val; rw [if_neg (by decide)]
      | ⟨3, _⟩ => by show 0 = if (1 : Nat) = 1 then 0 else _; rw [if_pos rfl]),
    shapeCast_apply y shapeCasts_S16x301_S16x1x301x1 (unitB j) (hixB j) (by
      rw [Shape.rowMajor_val_two, Shape.rowMajor_val_four]
      show (j 0).val * 301 + (j 2).val = (((j 0).val * 1 + 0) * 301 + (j 2).val) * 1 + 0
      omega)]

/-! ## From the blocks to the arrays -/

variable (V : (c : Dev nD) → (b : Ref sig .tc) → Buf (Elt Ideal) ((c : Thread nD τ).loc b))

theorem origin1 : (![0] : Fin 1 → Nat) = fun _ => 0 := funext fun a => by fin_cases a; rfl
theorem origin2 : (![0, 0] : Fin 2 → Nat) = fun _ => 0 := funext fun a => by fin_cases a <;> rfl
theorem origin4 : (![0, 0, 0, 0] : Fin 4 → Nat) = fun _ => 0 := funext fun a => by fin_cases a <;> rfl

/-- The printed index maps, decided over the 625 points: the block of a and the two result blocks sit at the same row
    block t and cover every other axis whole; the bias is staged whole. -/
theorem maps : ∀ t : Fin cfg1.N, win1_0.index t (0 : Fin 2) = t.val
    ∧ win1_0.index t (1 : Fin 2) = 0
    ∧ win1_1.index t (0 : Fin 1) = 0
    ∧ win1_2.index t (0 : Fin 4) = t.val
    ∧ win1_2.index t (1 : Fin 4) = 0
    ∧ win1_2.index t (2 : Fin 4) = 0
    ∧ win1_2.index t (3 : Fin 4) = 0
    ∧ win1_3.index t (0 : Fin 2) = t.val
    ∧ win1_3.index t (1 : Fin 2) = 0 :=
  (by decide +kernel : ∀ t : Fin grid1.N, _)

/-- What point t writes back to the embeddings is block t of `biasRelu` of the arrays the region is entered with. -/
theorem flushed_emb (c : Dev nD) (t : Fin cfg1.N) :
    (dat1 V c).flushed 3 t
      = ((cfg1.win 3).blk t).view.read (Elt Ideal) (biasRelu (V c main_v45) (V c main_arg5)) := by
  show (cfg1.win 3).cut (grid1.coords t) ((dat1 V c).after 3 t) = _
  rw [after1_3]
  unfold out1_3
  rw [View.canon_unit_zero origin2]
  simp only [View.ld_unit_zero (S := S16x301) origin2, View.ld_unit_zero (S := S301) origin1]
  obtain ⟨e0, e1, e2, e3, e4, e5, e6, e7, e8⟩ := maps t
  funext j
  refine (emb_apply (iblk1 V c 0 t) (iblk1 V c 1 t) j).trans ?_
  show FloatOps.maximumf (F := Ideal) (φ := .f32)
      (FloatOps.addf (V c main_v45 (((cfg1.win 0).blk t).view.emb j)) (V c main_arg5 (((cfg1.win 1).blk t).view.emb (bixB j))))
      (FloatOps.ofBits .f32 0x00000000#32)
    = FloatOps.maximumf (F := Ideal) (φ := .f32)
      (FloatOps.addf (V c main_v45 (((cfg1.win 3).blk t).view.emb j)) (V c main_arg5 (bix (((cfg1.win 3).blk t).view.emb j))))
      (FloatOps.ofBits .f32 0x00000000#32)
  have h0 : ((cfg1.win 0).blk t).view.emb j = ((cfg1.win 3).blk t).view.emb j := by
    funext a; apply Fin.ext
    match a with
    | ⟨0, _⟩ => show win1_0.index t (0 : Fin 2) * 16 + 1 * (j 0).val = win1_3.index t (0 : Fin 2) * 16 + 1 * (j 0).val; omega
    | ⟨1, _⟩ => show win1_0.index t (1 : Fin 2) * 301 + 1 * (j 1).val = win1_3.index t (1 : Fin 2) * 301 + 1 * (j 1).val; omega
  have h1 : ((cfg1.win 1).blk t).view.emb (bixB j) = bix (((cfg1.win 3).blk t).view.emb j) := by
    funext a; apply Fin.ext
    match a with
    | ⟨0, _⟩ => show win1_1.index t (0 : Fin 1) * 301 + 1 * (j 1).val = win1_3.index t (1 : Fin 2) * 301 + 1 * (j 1).val; omega
  rw [h0, h1]

/-- What point t writes back to the tiled output is block t of `tiled (biasRelu …)`. -/
theorem flushed_out (c : Dev nD) (t : Fin cfg1.N) :
    (dat1 V c).flushed 2 t
      = ((cfg1.win 2).blk t).view.read (Elt Ideal) (tiled (biasRelu (V c main_v45) (V c main_arg5))) := by
  show (cfg1.win 2).cut (grid1.coords t) ((dat1 V c).after 2 t) = _
  rw [after1_2]
  unfold out1_2
  rw [View.canon_unit_zero origin4]
  simp only [View.ld_unit_zero (S := S16x301) origin2, View.ld_unit_zero (S := S301) origin1]
  obtain ⟨e0, e1, e2, e3, e4, e5, e6, e7, e8⟩ := maps t
  funext j
  refine (tile_apply (iblk1 V c 0 t) (iblk1 V c 1 t) j).trans ?_
  refine (emb_apply (iblk1 V c 0 t) (iblk1 V c 1 t) (hixB j)).trans ?_
  show FloatOps.maximumf (F := Ideal) (φ := .f32)
      (FloatOps.addf (V c main_v45 (((cfg1.win 0).blk t).view.emb (hixB j))) (V c main_arg5 (((cfg1.win 1).blk t).view.emb (bixB (hixB j)))))
      (FloatOps.ofBits .f32 0x00000000#32)
    = FloatOps.maximumf (F := Ideal) (φ := .f32)
      (FloatOps.addf (V c main_v45 (hix (((cfg1.win 2).blk t).view.emb j))) (V c main_arg5 (bix (hix (((cfg1.win 2).blk t).view.emb j)))))
      (FloatOps.ofBits .f32 0x00000000#32)
  have h0 : ((cfg1.win 0).blk t).view.emb (hixB j) = hix (((cfg1.win 2).blk t).view.emb j) := by
    funext a; apply Fin.ext
    match a with
    | ⟨0, _⟩ => show win1_0.index t (0 : Fin 2) * 16 + 1 * (j 0).val = win1_2.index t (0 : Fin 4) * 16 + 1 * (j 0).val; omega
    | ⟨1, _⟩ => show win1_0.index t (1 : Fin 2) * 301 + 1 * (j 2).val = win1_2.index t (2 : Fin 4) * 301 + 1 * (j 2).val; omega
  have h1 : ((cfg1.win 1).blk t).view.emb (bixB (hixB j)) = bix (hix (((cfg1.win 2).blk t).view.emb j)) := by
    funext a; apply Fin.ext
    match a with
    | ⟨0, _⟩ => show win1_1.index t (0 : Fin 1) * 301 + 1 * (j 2).val = win1_2.index t (2 : Fin 4) * 301 + 1 * (j 2).val; omega
  rw [h0, h1]

/-- An index of the embeddings is in point t's block iff each coordinate is in the block's range on its axis. -/
theorem mem_emb (t : Fin cfg1.N) (i : S10000x301.Idx) :
    i ∈ ((cfg1.win 3).blk t).view.set ↔ ∀ a : Fin 2, win1_3.index t a * S16x301.size a ≤ (i a).val ∧ (i a).val < win1_3.index t a * S16x301.size a + S16x301.size a := by
  show i ∈ ((View.whole main_v46_1).slice (win1_3.rect t)).set ↔ _
  rw [View.set_slice_whole, Rect.mem_set_unit]
  exact Iff.rfl

/-- An index of the tiled output is in point t's block iff each coordinate is in the block's range on its axis. -/
theorem mem_out (t : Fin cfg1.N) (i : S10000x4x301x12.Idx) :
    i ∈ ((cfg1.win 2).blk t).view.set ↔ ∀ a : Fin 4, win1_2.index t a * S16x4x301x12.size a ≤ (i a).val ∧ (i a).val < win1_2.index t a * S16x4x301x12.size a + S16x4x301x12.size a := by
  show i ∈ ((View.whole main_v46_0).slice (win1_2.rect t)).set ↔ _
  rw [View.set_slice_whole, Rect.mem_set_unit]
  exact Iff.rfl

/-- Every row of the embeddings lies in the block of the point numbered by its sixteen. -/
theorem cover_emb (i : S10000x301.Idx) : ∃ t : Fin cfg1.N, (cfg1.win 3).flush t = true ∧ i ∈ ((cfg1.win 3).blk t).view.set := by
  have hi0 : (i 0).val < 10000 := (i 0).isLt
  have hi1 : (i 1).val < 301 := (i 1).isLt
  have hN : grid1.N = 625 := N_1
  have hlt : (i 0).val / 16 < grid1.N := by omega
  obtain ⟨-, -, -, -, -, -, -, q0, q1⟩ := maps ⟨(i 0).val / 16, hlt⟩
  refine ⟨⟨(i 0).val / 16, hlt⟩, flush1_3 _, ?_⟩
  rw [mem_emb]
  intro a
  match a with
  | ⟨0, _⟩ =>
    show win1_3.index ⟨(i 0).val / 16, hlt⟩ (0 : Fin 2) * 16 ≤ (i 0).val ∧ (i 0).val < win1_3.index ⟨(i 0).val / 16, hlt⟩ (0 : Fin 2) * 16 + 16
    have q0' : win1_3.index ⟨(i 0).val / 16, hlt⟩ (0 : Fin 2) = (i 0).val / 16 := q0
    omega
  | ⟨1, _⟩ =>
    show win1_3.index ⟨(i 0).val / 16, hlt⟩ (1 : Fin 2) * 301 ≤ (i 1).val ∧ (i 1).val < win1_3.index ⟨(i 0).val / 16, hlt⟩ (1 : Fin 2) * 301 + 301
    omega

/-- Every row slab of the tiled output lies in the block of the point numbered by its sixteen. -/
theorem cover_out (i : S10000x4x301x12.Idx) : ∃ t : Fin cfg1.N, (cfg1.win 2).flush t = true ∧ i ∈ ((cfg1.win 2).blk t).view.set := by
  have hi0 : (i 0).val < 10000 := (i 0).isLt
  have hi1 : (i 1).val < 4 := (i 1).isLt
  have hi2 : (i 2).val < 301 := (i 2).isLt
  have hi3 : (i 3).val < 12 := (i 3).isLt
  have hN : grid1.N = 625 := N_1
  have hlt : (i 0).val / 16 < grid1.N := by omega
  obtain ⟨-, -, -, q0, q1, q2, q3, -, -⟩ := maps ⟨(i 0).val / 16, hlt⟩
  refine ⟨⟨(i 0).val / 16, hlt⟩, flush1_2 _, ?_⟩
  rw [mem_out]
  intro a
  match a with
  | ⟨0, _⟩ =>
    show win1_2.index ⟨(i 0).val / 16, hlt⟩ (0 : Fin 4) * 16 ≤ (i 0).val ∧ (i 0).val < win1_2.index ⟨(i 0).val / 16, hlt⟩ (0 : Fin 4) * 16 + 16
    have q0' : win1_2.index ⟨(i 0).val / 16, hlt⟩ (0 : Fin 4) = (i 0).val / 16 := q0
    omega
  | ⟨1, _⟩ =>
    show win1_2.index ⟨(i 0).val / 16, hlt⟩ (1 : Fin 4) * 4 ≤ (i 1).val ∧ (i 1).val < win1_2.index ⟨(i 0).val / 16, hlt⟩ (1 : Fin 4) * 4 + 4
    omega
  | ⟨2, _⟩ =>
    show win1_2.index ⟨(i 0).val / 16, hlt⟩ (2 : Fin 4) * 301 ≤ (i 2).val ∧ (i 2).val < win1_2.index ⟨(i 0).val / 16, hlt⟩ (2 : Fin 4) * 301 + 301
    omega
  | ⟨3, _⟩ =>
    show win1_2.index ⟨(i 0).val / 16, hlt⟩ (3 : Fin 4) * 12 ≤ (i 3).val ∧ (i 3).val < win1_2.index ⟨(i 0).val / 16, hlt⟩ (3 : Fin 4) * 12 + 12
    omega

/-- After the region the embeddings array is `biasRelu` of the arrays the region is entered with. -/
theorem value_emb (c : Dev nD) : (dat1 V c).arrAt 3 cfg1.N = biasRelu (V c main_v45) (V c main_arg5) :=
  (dat1 V c).arrAt_eq_of_cover 3 (biasRelu (V c main_v45) (V c main_arg5)) (fun t _ => flushed_emb V c t) cover_emb

/-- After the region the tiled output is `tiled (biasRelu …)` of the arrays the region is entered with. -/
theorem value_out (c : Dev nD) : (dat1 V c).arrAt 2 cfg1.N = tiled (biasRelu (V c main_v45) (V c main_arg5)) :=
  (dat1 V c).arrAt_eq_of_cover 2 (tiled (biasRelu (V c main_v45) (V c main_arg5))) (fun t _ => flushed_out V c t) cover_out

end Cert.Gcn.Tail

end
-- ==== Proof.Middle.lean ====
/-
  Between the two regions: what the second region is entered with, and the kernel program's two results.

  The second region reads the aggregated features from the buffer the last host operation wrote and the bias from
  the argument. Reading the three host stretches back one operation at a time, the aggregated features are the chain
  `agg` — the same chain of host operations the reference applies — of the first region's result array, the edge
  list and the edge weights as launched; no operation writes the bias, the edge list or the edge weights. The first
  region's result array is the matrix product of x and W as launched. So the kernel program ends with the
  embeddings at `biasRelu (agg (matProd x W) edges weights) b` and the tiled output at `tiled` of that.
-/
import proofs.«170376_j78546361909531_2_alg».proof.Proof.Gen.KernelIdeal.Frame
import proofs.«170376_j78546361909531_2_alg».proof.Proof.RefValue
import proofs.«170376_j78546361909531_2_alg».proof.Proof.Region0
import proofs.«170376_j78546361909531_2_alg».proof.Proof.Region1
import Idealize.ShloMosaic.Lib.StableHlo.Run

set_option maxRecDepth 16384

noncomputable section

namespace Cert.Gcn.Mid

open Cert.KernelIdeal Cert.KernelIdeal.Gen Cert.Gcn
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The first region leaves the edge list as launched. -/
theorem entry_edges (c : Dev nD) : W1 m ρ c (Proc.devRef .tc main_arg1) = m ((c : Thread nD τ).loc main_arg1) :=
  (W1_of_ne m ρ c main_arg1 (by decide)).trans rfl

/-- The first region leaves the edge weights as launched. -/
theorem entry_weights (c : Dev nD) : W1 m ρ c (Proc.devRef .tc main_arg2) = m ((c : Thread nD τ).loc main_arg2) :=
  (W1_of_ne m ρ c main_arg2 (by decide)).trans rfl

/-- The first region's result array is the matrix product of the features and the weights as launched. -/
theorem entry_prod (c : Dev nD) :
    W1 m ρ c (Proc.devRef .tc main_v0) = matProd (m ((c : Thread nD τ).loc main_arg0)) (m ((c : Thread nD τ).loc main_arg4)) :=
  (W1_arr m ρ c 2).trans (Product.value (V0 m ρ) c)

/-- The second region is entered with the bias as launched: no host operation writes it. -/
theorem entry_bias (c : Dev nD) : V4 m ρ c main_arg5 = m ((c : Thread nD τ).loc main_arg5) :=
  ((W5_arr m ρ c 1).trans (((dat1 (V4 m ρ) c).arrAt_in 1 rfl _).trans (A_eq1 (V4 m ρ) c 1))).symm.trans (W5_main_arg5 m ρ c)

/-- The second region is entered with the aggregated features at the chain `agg` of the first region's result
    array, the edge list and the edge weights: the three host stretches read back one operation at a time. The
    outlined select writes through references that carry their tensor types; the transports along those type
    equations are identities and are removed before the two terms are compared. -/
theorem entry_agg (c : Dev nD) :
    V4 m ρ c main_v45
      = Ref.agg (W1 m ρ c (Proc.devRef .tc main_v0)) (W1 m ρ c (Proc.devRef .tc main_arg1)) (W1 m ρ c (Proc.devRef .tc main_arg2)) := by
  show StableHlo.after hostOps1_2 (StableHlo.after hostOps1_1 (StableHlo.after hostOps1 (W1 m ρ c))) (Proc.devRef .tc main_v45) = _
  after_results_simp
  simp only [TRef.toBuf, TRef.ofBuf, cast_eq]
  rfl

/-- The aggregated features the second region is entered with, as a function of the launch contents. -/
theorem entry_agg_launch (c : Dev nD) :
    V4 m ρ c main_v45
      = Ref.agg (matProd (m ((c : Thread nD τ).loc main_arg0)) (m ((c : Thread nD τ).loc main_arg4)))
          (m ((c : Thread nD τ).loc main_arg1)) (m ((c : Thread nD τ).loc main_arg2)) :=
  (entry_agg m ρ c).trans (by rw [entry_prod, entry_edges, entry_weights])

/-- The kernel program's embeddings. -/
theorem emb_value (c : Dev nD) :
    (dat1 (V4 m ρ) c).arrAt 3 cfg1.N
      = biasRelu (Ref.agg (matProd (m ((c : Thread nD τ).loc main_arg0)) (m ((c : Thread nD τ).loc main_arg4)))
          (m ((c : Thread nD τ).loc main_arg1)) (m ((c : Thread nD τ).loc main_arg2))) (m ((c : Thread nD τ).loc main_arg5)) :=
  (Tail.value_emb (V4 m ρ) c).trans (congr (congrArg biasRelu (entry_agg_launch m ρ c)) (entry_bias m ρ c))

/-- The kernel program's tiled output. -/
theorem out_value (c : Dev nD) :
    (dat1 (V4 m ρ) c).arrAt 2 cfg1.N
      = tiled (biasRelu (Ref.agg (matProd (m ((c : Thread nD τ).loc main_arg0)) (m ((c : Thread nD τ).loc main_arg4)))
          (m ((c : Thread nD τ).loc main_arg1)) (m ((c : Thread nD τ).loc main_arg2))) (m ((c : Thread nD τ).loc main_arg5))) :=
  (Tail.value_out (V4 m ρ) c).trans (congrArg tiled (congr (congrArg biasRelu (entry_agg_launch m ρ c)) (entry_bias m ρ c)))

end Cert.Gcn.Mid

end
-- ==== Proof.lean ====
/-
  A graph-convolution layer, its kernel program against its jnp reference, on the extended reals.

  Both programs compute, from node features x (10000 × 2000), an edge list and edge weights, weights W (2000 × 301)
  and a bias b (301):
      embeddings = max (agg (x · W) + b) 0            (10000 × 301)
      out        = embeddings repeated over a head axis of 4 and a per-head axis of 12      (10000 × 4 × 301 × 12)
  where `agg` is the symmetric-normalised neighbourhood sum: self loops appended, the degree by scatter-add of the
  weights at the targets, its inverse square root where positive, each source row of x · W scaled by the normalised
  weight and scatter-added at its target.

  The kernel program computes x · W in a row-blocked kernel region (ten blocks of 1000 rows; the operands narrowed
  to bf16, which is the identity on the extended reals; the matrix unit's pass into a zero accumulator, which is the
  plain sum over the contracted axis), applies the SAME chain of host operations for `agg` as the reference, and
  finishes in a second kernel region (625 blocks of 16 rows) that adds the bias, clamps at zero and writes both the
  embeddings and their tiled copy. The reference computes x · W by one `dot_general`, the same chain, then broadcast,
  add, maximum, and the tiling by broadcasts and reshapes.

  The two results agree entry by entry because: the blocked product and the `dot_general` are the same sum over k of
  x(p, k) · W(k, q) (`Gcn.Product.value`, `Gcn.Ref.stage_prod`); `agg` is one function applied to equal arguments,
  never opened (`Gcn.Mid.entry_agg`, `Gcn.Ref.stage_agg`); bias and clamp are the same pointwise expression
  (`Gcn.Tail.value_emb`, `Gcn.Ref.stage_emb`); and both tilings read entry (n, h, d, j) at (n, d)
  (`Gcn.Tail.value_out`, `Gcn.Ref.stage_out`). No law that needs finiteness is used: the precondition is never opened.
  The idealized kernel is the printed kernel read at the ideal instance (no rewrite was applied), so `preserves` is
  trivial.
-/
import proofs.«170376_j78546361909531_2_alg».proof.Defs
import proofs.«170376_j78546361909531_2_alg».proof.Proof.Gen.Kernel
import proofs.«170376_j78546361909531_2_alg».proof.Proof.Gen.Kernel.Skeleton
import proofs.«170376_j78546361909531_2_alg».proof.Proof.Gen.Kernel.Launch
import proofs.«170376_j78546361909531_2_alg».proof.Proof.Gen.Kernel.Points
import proofs.«170376_j78546361909531_2_alg».proof.Proof.Gen.Kernel.Frame
import proofs.«170376_j78546361909531_2_alg».proof.Proof.Gen.KernelIdeal
import proofs.«170376_j78546361909531_2_alg».proof.Proof.Gen.KernelIdeal.Skeleton
import proofs.«170376_j78546361909531_2_alg».proof.Proof.Gen.KernelIdeal.Launch
import proofs.«170376_j78546361909531_2_alg».proof.Proof.Gen.KernelIdeal.Points
import proofs.«170376_j78546361909531_2_alg».proof.Proof.Gen.KernelIdeal.Frame
import proofs.«170376_j78546361909531_2_alg».proof.Proof.Gen.ReferenceIdeal
import proofs.«170376_j78546361909531_2_alg».proof.Proof.Gen.Pre_finite_inputs
import proofs.«170376_j78546361909531_2_alg».proof.Proof.Gen.ReferenceIdeal.Run
import proofs.«170376_j78546361909531_2_alg».proof.Proof.Gen.ReferenceIdeal.Read
import proofs.«170376_j78546361909531_2_alg».proof.Proof.KernelRun
import proofs.«170376_j78546361909531_2_alg».proof.Proof.Middle
import Idealize.ShloMosaic.Adequacy
import Idealize.ShloMosaic.Init

noncomputable section

namespace Cert.Proof

open Idealize.ShloMosaic Idealize.ShloMosaic.TcCoe Idealize.SL.Sem Cert.Gcn

/-- The printed kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both programs end with the tiled output at
    `tiled (biasRelu (agg (matProd x W) edges weights) b)` and the embeddings at `biasRelu (…)`. -/
theorem algebraic : Cert.algebraic_KernelIdeal_ReferenceIdeal := by
  intro m ρ m' ρ' _ hagree
  refine ⟨fun c => tiled (biasRelu (Ref.agg (matProd (m ((c.tc : Thread Cert.KernelIdeal.nD Cert.KernelIdeal.τ).loc Cert.KernelIdeal.main_arg0))
              (m ((c.tc : Thread Cert.KernelIdeal.nD Cert.KernelIdeal.τ).loc Cert.KernelIdeal.main_arg4)))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)))
          (m ((c.tc : Thread Cert.KernelIdeal.nD Cert.KernelIdeal.τ).loc Cert.KernelIdeal.main_arg5))),
    fun c => biasRelu (Ref.agg (matProd (m ((c.tc : Thread Cert.KernelIdeal.nD Cert.KernelIdeal.τ).loc Cert.KernelIdeal.main_arg0))
              (m ((c.tc : Thread Cert.KernelIdeal.nD Cert.KernelIdeal.τ).loc Cert.KernelIdeal.main_arg4)))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)))
          (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Mid.out_value m ρ c), (h c).2.1.trans (Mid.emb_value m ρ c), (h c).2.2⟩)
      (Run.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v53_eq, Ref.out_eq, (hagree c).1, (hagree c).2.1, (hagree c).2.2.1,
        (hagree c).2.2.2.2.1, (hagree c).2.2.2.2.2]
    · rw [Cert.ReferenceIdeal.Read.val_main_v49_eq, Ref.emb_eq, (hagree c).1, (hagree c).2.1, (hagree c).2.2.1,
        (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
